-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x512 : Shape := ⟨3, ![16, 256, 512]⟩
abbrev S16x512x2048 : Shape := ⟨3, ![16, 512, 2048]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S16x512x2048 : S_.BroadcastsInDim S16x512x2048 (![] : Fin 0 → Fin S16x512x2048.rank)
  reducesTo_S16x512x2048_S_d0_1_2 : S16x512x2048.ReducesTo [0, 1, 2] S_

variable [Facts]

def fn {F : FTy → Type} [FloatOps F] (main_arg0 : FVec F S16x256x512 .f32) (main_arg1 : FVec F S16x512x2048 .f32) : IVec S_ 1 :=
  let main_v0 : FVec F S16x256x512 .f32 := Host.absf main_arg0
  let main_cst : FVec F S_ .f32 := constant S_ .f32 0x7F800000#32
  let main_v1 : FVec F S16x256x512 .f32 := broadcastInDim S16x256x512 ![] bcast_S_S16x256x512 main_cst
  let main_v2 : IVec S16x256x512 1 := cmpf .olt main_v0 main_v1
  let main_c : IVec S_ 1 := constantI S_ 1 1#1
  let main_v3 : IVec S_ 1 := (fun x v => Host.reduce IntOp.andi x v reducesTo_S16x256x512_S_d0_1_2 h_S_) main_v2 main_c
  let main_v4 : FVec F S16x512x2048 .f32 := Host.absf main_arg1
  let main_cst_0 : FVec F S_ .f32 := constant S_ .f32 0x7F800000#32
  let main_v5 : FVec F S16x512x2048 .f32 := broadcastInDim S16x512x2048 ![] bcast_S_S16x512x2048 main_cst_0
  let main_v6 : IVec S16x512x2048 1 := cmpf .olt main_v4 main_v5
  let main_c_1 : IVec S_ 1 := constantI S_ 1 1#1
  let main_v7 : IVec S_ 1 := (fun x v => Host.reduce IntOp.andi x v reducesTo_S16x512x2048_S_d0_1_2 h_S_) main_v6 main_c_1
  let main_v8 : IVec S_ 1 := andi main_v3 main_v7
  main_v8
-- ==== Kernel.lean ====
abbrev S16x256x512 : Shape := ⟨3, ![16, 256, 512]⟩
abbrev S16x512x2048 : Shape := ⟨3, ![16, 512, 2048]⟩
abbrev S16x256x2048 : Shape := ⟨3, ![16, 256, 2048]⟩
abbrev S2x256x512 : Shape := ⟨3, ![2, 256, 512]⟩
abbrev S2x512x2048 : Shape := ⟨3, ![2, 512, 2048]⟩
abbrev S2x256x2048 : Shape := ⟨3, ![2, 256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16x256x512, .f32⟩
  | .hbm, ⟨1, _⟩ => ⟨S16x512x2048, .f32⟩
  | .hbm, ⟨2, _⟩ => ⟨S16x256x2048, .f32⟩
  | .local _ .vmem, ⟨0, _⟩ => ⟨S2x256x512, .f32⟩
  | .local _ .vmem, ⟨1, _⟩ => ⟨S2x256x512, .f32⟩
  | .local _ .vmem, ⟨2, _⟩ => ⟨S2x512x2048, .f32⟩
  | .local _ .vmem, ⟨3, _⟩ => ⟨S2x512x2048, .f32⟩
  | .local _ .vmem, ⟨4, _⟩ => ⟨S2x256x2048, .f32⟩
  | .local _ .vmem, ⟨5, _⟩ => ⟨S2x256x2048, .f32⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x256x512_S2x256x512_0_0_0 : ∀ a, (![0, 0, 0] : Fin 3 → Nat) a + S2x256x512.size a ≤ S2x256x512.size a
  h_S2x256x512 : 0 < S2x256x512.numel
  bitsLt_bf16_f32 : FTy.bits .bf16 < FTy.bits .f32
  inb_S2x512x2048_S2x512x2048_0_0_0 : ∀ a, (![0, 0, 0] : Fin 3 → Nat) a + S2x512x2048.size a ≤ S2x512x2048.size a
  h_S2x512x2048 : 0 < S2x512x2048.numel
  inb_S2x256x2048_S2x256x2048_0_0_0 : ∀ a, (![0, 0, 0] : Fin 3 → Nat) a + S2x256x2048.size a ≤ S2x256x2048.size a
  h_S2x256x2048 : 0 < S2x256x2048.numel
  dot_S2x256x512_S2x512x2048_S2x256x2048_2_1_1_2_0_0_wf : DotDims.WF S2x256x512 S2x512x2048 S2x256x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S16x256x512.size a
  hwx0_0 : ∀ i : grid0.Coords, EltTy.bits .f32 = 32 ∨ (Rect.block (s := S16x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x2048.size a ≤ S16x512x2048.size a
  hwx0_1 : ∀ i : grid0.Coords, EltTy.bits .f32 = 32 ∨ (Rect.block (s := S16x512x2048) S2x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x2048.size a ≤ S16x256x2048.size a
  hwx0_2 : ∀ i : grid0.Coords, EltTy.bits .f32 = 32 ∨ (Rect.block (s := S16x256x2048) S2x256x2048.size (cc0_transform_2 i) (hinb0_2 i)).WholeWords (EltTy.packing .f32)

variable [Facts₀]

def dot_S2x256x512_S2x512x2048_S2x256x2048_2_1_1_2_0_0 : DotDims S2x256x512 S2x512x2048 S2x256x2048 where
  lhsContracting := [2]
  rhsContracting := [1]
  lhsNonContracting := [1]
  rhsNonContracting := [2]
  lhsBatch := [0]
  rhsBatch := [0]
  wf := dot_S2x256x512_S2x512x2048_S2x256x2048_2_1_1_2_0_0_wf

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x512 : Shape := ⟨3, ![16, 256, 512]⟩
abbrev S16x512x2048 : Shape := ⟨3, ![16, 512, 2048]⟩
abbrev S16x256x2048 : Shape := ⟨3, ![16, 256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16x256x512, .f32⟩
  | .hbm, ⟨1, _⟩ => ⟨S16x512x2048, .f32⟩
  | .hbm, ⟨2, _⟩ => ⟨S16x256x2048, .f32⟩
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x256x512_S16x512x2048_S16x256x2048_2_1_1_2_0_0_wf : DotDims.WF S16x256x512 S16x512x2048 S16x256x2048 [2] [1] [1] [2] [0] [0]

variable [Facts₀]

def dot_S16x256x512_S16x512x2048_S16x256x2048_2_1_1_2_0_0 : DotDims S16x256x512 S16x512x2048 S16x256x2048 where
  lhsContracting := [2]
  rhsContracting := [1]
  lhsNonContracting := [1]
  rhsNonContracting := [2]
  lhsBatch := [0]
  rhsBatch := [0]
  wf := dot_S16x256x512_S16x512x2048_S16x256x2048_2_1_1_2_0_0_wf

class Facts : Prop extends Facts₀ where

variable [Facts]
-- ==== Proof.BatchedProduct.lean ====
/-
  The function both programs compute: the product of a stack of matrices, on the extended reals.

  For `x` a stack of 16 matrices of 256 rows and 512 columns and `p` a stack of 16 matrices of 512 rows and 2048
  columns, entry (b, d, n) of the result is  Σ_k x[b, d, k] · p[b, k, n],  k running over the 512 contracted positions.
  The sum is a finite sum in the commutative monoid of the extended reals, so neither the order in which the products
  are added nor any grouping of them matters, and no entry needs to be finite for the sum to be the same on both sides.
-/
import Idealize.ShloMosaic.PureOps.Ideal
import Idealize.ShloMosaic.Lib.ValueIdx

noncomputable section

open scoped BigOperators

namespace Cert.BatchedProduct

open Idealize.ShloMosaic Idealize.ShloMosaic.ValueIdx

/-- Entry (b, d, n) of the product of the two stacks: row d of matrix b of `x` against column n of matrix b of `p`. -/
def entry (x : (⟨3, ![16, 256, 512]⟩ : Shape).Idx → EReal) (p : (⟨3, ![16, 512, 2048]⟩ : Shape).Idx → EReal)
    (b : Fin 16) (d : Fin 256) (n : Fin 2048) : EReal :=
  ∑ k : Fin 512, x (ix3 b d k) * p (ix3 b k n)

/-- The product of the two stacks, as one array over [16, 256, 2048]. -/
def prod (x : (⟨3, ![16, 256, 512]⟩ : Shape).Idx → EReal) (p : (⟨3, ![16, 512, 2048]⟩ : Shape).Idx → EReal) :
    (⟨3, ![16, 256, 2048]⟩ : Shape).Idx → EReal :=
  fun i => entry x p (i 0) (i 1) (i 2)

theorem prod_apply (x : (⟨3, ![16, 256, 512]⟩ : Shape).Idx → EReal) (p : (⟨3, ![16, 512, 2048]⟩ : Shape).Idx → EReal)
    (b : Fin 16) (d : Fin 256) (n : Fin 2048) :
    prod x p (ix3 b d n) = ∑ k : Fin 512, x (ix3 b d k) * p (ix3 b k n) := rfl

end Cert.BatchedProduct

end
-- ==== Proof.BlockProduct.lean ====
/-
  What the kernel's body computes from one pair of blocks. A block of the first argument is 2 matrices [256, 512], a
  block of the second 2 matrices [512, 2048]; the body narrows both to bf16 (no change of value on the extended
  reals), multiplies matrix by matrix into a zero accumulator, and stores the 2 products. So entry (b, d, n) of what
  it stores is the sum over k of xblock[b, d, k] · pblock[b, k, n], b one of the block's 2 matrices.
-/
import proofs.«151869_j46634754900528_2_alg».proof.Proof.Gen.KernelIdeal.Skeleton
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's index for output index j and contracted position q: batch and row from j, column from q. -/
theorem lhs_0 (j : S2x256x2048.Idx) (q : dot_S2x256x512_S2x512x2048_S2x256x2048_2_1_1_2_0_0.contr.Idx) :
    (dot_S2x256x512_S2x512x2048_S2x256x2048_2_1_1_2_0_0.lhsIdx j q 0).val = (j 0).val := by
  unfold DotDims.lhsIdx
  rw [dif_pos (show (0 : Fin S2x256x512.rank) ∈ dot_S2x256x512_S2x512x2048_S2x256x2048_2_1_1_2_0_0.lhsBatch by decide)]
  rfl
theorem lhs_1 (j : S2x256x2048.Idx) (q : dot_S2x256x512_S2x512x2048_S2x256x2048_2_1_1_2_0_0.contr.Idx) :
    (dot_S2x256x512_S2x512x2048_S2x256x2048_2_1_1_2_0_0.lhsIdx j q 1).val = (j 1).val := by
  unfold DotDims.lhsIdx
  rw [dif_neg (show ¬(1 : Fin S2x256x512.rank) ∈ dot_S2x256x512_S2x512x2048_S2x256x2048_2_1_1_2_0_0.lhsBatch by decide),
    dif_pos (show (1 : Fin S2x256x512.rank) ∈ dot_S2x256x512_S2x512x2048_S2x256x2048_2_1_1_2_0_0.lhsNonContracting by decide)]
  rfl
theorem lhs_2 (j : S2x256x2048.Idx) (q : dot_S2x256x512_S2x512x2048_S2x256x2048_2_1_1_2_0_0.contr.Idx) :
    (dot_S2x256x512_S2x512x2048_S2x256x2048_2_1_1_2_0_0.lhsIdx j q 2).val = (q ⟨0, by decide⟩).val :=
  dot_S2x256x512_S2x512x2048_S2x256x2048_2_1_1_2_0_0.lhsIdx_val_of_single rfl j q

/-- The right operand's index: batch from j, row from q, column from j. -/
theorem rhs_0 (j : S2x256x2048.Idx) (q : dot_S2x256x512_S2x512x2048_S2x256x2048_2_1_1_2_0_0.contr.Idx) :
    (dot_S2x256x512_S2x512x2048_S2x256x2048_2_1_1_2_0_0.rhsIdx j q 0).val = (j 0).val := by
  unfold DotDims.rhsIdx
  rw [dif_pos (show (0 : Fin S2x512x2048.rank) ∈ dot_S2x256x512_S2x512x2048_S2x256x2048_2_1_1_2_0_0.rhsBatch by decide)]
  rfl
theorem rhs_1 (j : S2x256x2048.Idx) (q : dot_S2x256x512_S2x512x2048_S2x256x2048_2_1_1_2_0_0.contr.Idx) :
    (dot_S2x256x512_S2x512x2048_S2x256x2048_2_1_1_2_0_0.rhsIdx j q 1).val = (q ⟨0, by decide⟩).val :=
  dot_S2x256x512_S2x512x2048_S2x256x2048_2_1_1_2_0_0.rhsIdx_val_of_single rfl j q
theorem rhs_2 (j : S2x256x2048.Idx) (q : dot_S2x256x512_S2x512x2048_S2x256x2048_2_1_1_2_0_0.contr.Idx) :
    (dot_S2x256x512_S2x512x2048_S2x256x2048_2_1_1_2_0_0.rhsIdx j q 2).val = (j 2).val := by
  unfold DotDims.rhsIdx
  rw [dif_neg (show ¬(2 : Fin S2x512x2048.rank) ∈ dot_S2x256x512_S2x512x2048_S2x256x2048_2_1_1_2_0_0.rhsBatch by decide),
    dif_pos (show (2 : Fin S2x512x2048.rank) ∈ dot_S2x256x512_S2x512x2048_S2x256x2048_2_1_1_2_0_0.rhsNonContracting by decide)]
  rfl

/-- Entry (b, d, n) of what the body stores, from the two blocks it loaded: Σ_k xblock[b, d, k] · pblock[b, k, n]. -/
theorem stored_apply (v0 : Vec Ideal S2x256x512 .f32) (v2 : Vec Ideal S2x512x2048 .f32) (b : Fin 2) (d : Fin 256) (n : Fin 2048) :
    k0_pay1 (F := Ideal) v0 v2 (ix3 b d n) = ∑ k : Fin 512, v0 (ix3 b d k) * v2 (ix3 b k n) := by
  unfold k0_pay1
  refine (Ideal.matmul_constant_zero_apply dot_S2x256x512_S2x512x2048_S2x256x2048_2_1_1_2_0_0 none _ _ (ix3 b d n)).trans ?_
  rw [← Equiv.sum_comp (contrEquiv1 dot_S2x256x512_S2x512x2048_S2x256x2048_2_1_1_2_0_0 512 rfl rfl).symm]
  refine Finset.sum_congr rfl fun k _ => ?_
  have hk := contrEquiv1_symm_val dot_S2x256x512_S2x512x2048_S2x256x2048_2_1_1_2_0_0 512 rfl rfl k
  have el : dot_S2x256x512_S2x512x2048_S2x256x2048_2_1_1_2_0_0.lhsIdx (ix3 b d n) ((contrEquiv1 dot_S2x256x512_S2x512x2048_S2x256x2048_2_1_1_2_0_0 512 rfl rfl).symm k) = ix3 b d k :=
    funext fun a => Fin.ext (by
      match a with
      | ⟨0, _⟩ => exact lhs_0 _ _
      | ⟨1, _⟩ => exact lhs_1 _ _
      | ⟨2, _⟩ => exact (lhs_2 _ _).trans hk)
  have er : dot_S2x256x512_S2x512x2048_S2x256x2048_2_1_1_2_0_0.rhsIdx (ix3 b d n) ((contrEquiv1 dot_S2x256x512_S2x512x2048_S2x256x2048_2_1_1_2_0_0 512 rfl rfl).symm k) = ix3 b k n :=
    funext fun a => Fin.ext (by
      match a with
      | ⟨0, _⟩ => exact rhs_0 _ _
      | ⟨1, _⟩ => exact (rhs_1 _ _).trans hk
      | ⟨2, _⟩ => exact rhs_2 _ _)
  rw [el, er]
  rfl

end Cert.KernelIdeal.BlockProduct

end
-- ==== Proof.BlockReads.lean ====
/-
  Where the blocks sit. The grid has 8 points; at point t each of the three windows is at block t along the batch
  axis and is whole along the other two axes, a block being 2 consecutive matrices of the stack. So matrix b (of 2)
  of a block at point t is matrix 2·t + b of the whole stack, rows and columns unchanged.
-/
import proofs.«151869_j46634754900528_2_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block index of every window at grid point t is (t, 0, 0): decided over the 8 points. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Entry (b, d, k) of the first argument's block at point t is entry (2·t + b, d, k) of the first argument. -/
theorem xblock_apply (c : Dev nD) (t : Fin cfg0.N) (b : Fin 2) (d : Fin 256) (k : Fin 512) (B : Fin 16)
    (hB : B.val = t.val * 2 + b.val) :
    (iblk m c 0 t : Vec F S2x256x512 .f32) (ix3 b d k) = (V m c main_arg0 : S16x256x512.Idx → Elt F .f32) (ix3 B d k) := by
  obtain ⟨e0, e1, e2, -⟩ := block_indices t
  show V m c main_arg0 (((cfg0.win 0).blk t).view.emb (ix3 b d k)) = V m c main_arg0 (ix3 B d k)
  refine congrArg (V m c main_arg0) ?_
  funext a; apply Fin.ext
  match a with
  | ⟨0, _⟩ => show win0_0.index t (0 : Fin 3) * 2 + 1 * b.val = B.val; omega
  | ⟨1, _⟩ => show win0_0.index t (1 : Fin 3) * 256 + 1 * d.val = d.val; omega
  | ⟨2, _⟩ => show win0_0.index t (2 : Fin 3) * 512 + 1 * k.val = k.val; omega

/-- Entry (b, k, n) of the second argument's block at point t is entry (2·t + b, k, n) of the second argument. -/
theorem pblock_apply (c : Dev nD) (t : Fin cfg0.N) (b : Fin 2) (k : Fin 512) (n : Fin 2048) (B : Fin 16)
    (hB : B.val = t.val * 2 + b.val) :
    (iblk m c 1 t : Vec F S2x512x2048 .f32) (ix3 b k n) = (V m c main_arg1 : S16x512x2048.Idx → Elt F .f32) (ix3 B k n) := by
  obtain ⟨-, -, -, e0, e1, e2, -⟩ := block_indices t
  show V m c main_arg1 (((cfg0.win 1).blk t).view.emb (ix3 b k n)) = V m c main_arg1 (ix3 B k n)
  refine congrArg (V m c main_arg1) ?_
  funext a; apply Fin.ext
  match a with
  | ⟨0, _⟩ => show win0_1.index t (0 : Fin 3) * 2 + 1 * b.val = B.val; omega
  | ⟨1, _⟩ => show win0_1.index t (1 : Fin 3) * 512 + 1 * k.val = k.val; omega
  | ⟨2, _⟩ => show win0_1.index t (2 : Fin 3) * 2048 + 1 * n.val = n.val; omega

/-- Entry (b, d, n) of the result's block at point t sits at entry (2·t + b, d, n) of the result array. -/
theorem oblock_emb (t : Fin cfg0.N) (b : Fin 2) (d : Fin 256) (n : Fin 2048) (B : Fin 16)
    (hB : B.val = t.val * 2 + b.val) :
    (((cfg0.win 2).blk t).view.emb (ix3 b d n) : S16x256x2048.Idx) = ix3 B d n := by
  obtain ⟨-, -, -, -, -, -, e0, e1, e2⟩ := block_indices t
  funext a; apply Fin.ext
  match a with
  | ⟨0, _⟩ => show win0_2.index t (0 : Fin 3) * 2 + 1 * b.val = B.val; omega
  | ⟨1, _⟩ => show win0_2.index t (1 : Fin 3) * 256 + 1 * d.val = d.val; omega
  | ⟨2, _⟩ => show win0_2.index t (2 : Fin 3) * 2048 + 1 * n.val = n.val; omega

/-- An index of the result array is in point t's block iff, on each axis, it is within the block's range there. -/
theorem mem_oblock (t : Fin cfg0.N) (i : S16x256x2048.Idx) :
    i ∈ ((cfg0.win 2).blk t).view.set ↔ ∀ a : Fin 3, win0_2.index t a * S2x256x2048.size a ≤ (i a).val
      ∧ (i a).val < win0_2.index t a * S2x256x2048.size a + S2x256x2048.size a := by
  show i ∈ ((View.whole main_v0).slice (win0_2.rect t)).set ↔ _
  rw [View.set_slice_whole, Rect.mem_set_unit]
  exact Iff.rfl

/-- Every index (B, d, n) of the result array is in the block of point B / 2, which is written back. -/
theorem covered (i : S16x256x2048.Idx) :
    ∃ t : Fin cfg0.N, (cfg0.win 2).flush t = true ∧ i ∈ ((cfg0.win 2).blk t).view.set := by
  have hN : grid0.N = 8 := N_0
  have h0 : (i 0).val < 16 := (i 0).isLt
  have h1 : (i 1).val < 256 := (i 1).isLt
  have h2 : (i 2).val < 2048 := (i 2).isLt
  have hlt : (i 0).val / 2 < cfg0.N := by show (i 0).val / 2 < grid0.N; omega
  refine ⟨⟨(i 0).val / 2, hlt⟩, flush0_2 _, ?_⟩
  rw [mem_oblock]
  obtain ⟨-, -, -, -, -, -, e0, e1, e2⟩ := block_indices ⟨(i 0).val / 2, hlt⟩
  have e0' : win0_2.index ⟨(i 0).val / 2, hlt⟩ (0 : Fin 3) = (i 0).val / 2 := e0
  intro a
  match a with
  | ⟨0, _⟩ =>
    show win0_2.index ⟨(i 0).val / 2, hlt⟩ (0 : Fin 3) * 2 ≤ (i 0).val ∧ (i 0).val < win0_2.index ⟨(i 0).val / 2, hlt⟩ (0 : Fin 3) * 2 + 2
    omega
  | ⟨1, _⟩ =>
    show win0_2.index ⟨(i 0).val / 2, hlt⟩ (1 : Fin 3) * 256 ≤ (i 1).val ∧ (i 1).val < win0_2.index ⟨(i 0).val / 2, hlt⟩ (1 : Fin 3) * 256 + 256
    omega
  | ⟨2, _⟩ =>
    show win0_2.index ⟨(i 0).val / 2, hlt⟩ (2 : Fin 3) * 2048 ≤ (i 2).val ∧ (i 2).val < win0_2.index ⟨(i 0).val / 2, hlt⟩ (2 : Fin 3) * 2048 + 2048
    omega

end Cert.KernelIdeal.BlockReads

end
-- ==== Proof.KernelProduct.lean ====
/-
  The kernel's result array is the product of the two stacks. At grid point t the body stores, from block t of each
  argument, the 2 matrix products of the block's 2 pairs of matrices (BlockProduct); block t of an argument is matrices
  2·t and 2·t + 1 of the stack and block t of the result is written back to matrices 2·t and 2·t + 1 of the result
  (BlockReads); so what point t writes back is block t of the product of the whole stacks. The 8 blocks cover the
  result array, hence after the run the array is that product.
-/
import proofs.«151869_j46634754900528_2_alg».proof.Proof.Gen.KernelIdeal.Value
import proofs.«151869_j46634754900528_2_alg».proof.Proof.BatchedProduct
import proofs.«151869_j46634754900528_2_alg».proof.Proof.BlockProduct
import proofs.«151869_j46634754900528_2_alg».proof.Proof.BlockReads

noncomputable section

open scoped BigOperators

namespace Cert.KernelIdeal.KernelProduct

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- What point t writes back is block t of the product of the two argument stacks. -/
theorem flushed_eq (c : Dev nD) (t : Fin cfg0.N) :
    (dats m 0 c).flushed 2 t
      = ((cfg0.win 2).blk t).view.read (Elt Ideal) (Cert.BatchedProduct.prod (V m c main_arg0) (V m c main_arg1)) := by
  rw [Cert.KernelIdeal.Value.flushed2]
  unfold out0_2
  rw [View.canon_unit_zero zero_offsets]
  simp only [View.ld_unit_zero (S := S2x256x512) zero_offsets, View.ld_unit_zero (S := S2x512x2048) zero_offsets]
  funext j
  have hN : grid0.N = 8 := N_0
  have ht : t.val < grid0.N := t.isLt
  have hb : (j 0).val < 2 := (j 0).isLt
  have hd : (j 1).val < 256 := (j 1).isLt
  have hn : (j 2).val < 2048 := (j 2).isLt
  have hj : j = ix3 (⟨(j 0).val, hb⟩ : Fin 2) (⟨(j 1).val, hd⟩ : Fin 256) (⟨(j 2).val, hn⟩ : Fin 2048) :=
    funext fun a => by match a with | ⟨0, _⟩ => rfl | ⟨1, _⟩ => rfl | ⟨2, _⟩ => rfl
  have hx : (cfg0.win 2).xinj (grid0.coords t) j = ix3 (⟨(j 0).val, hb⟩ : Fin 2) (⟨(j 1).val, hd⟩ : Fin 256) (⟨(j 2).val, hn⟩ : Fin 2048) :=
    funext fun a => by match a with | ⟨0, _⟩ => rfl | ⟨1, _⟩ => rfl | ⟨2, _⟩ => rfl
  have hB : t.val * 2 + (j 0).val < 16 := by omega
  show k0_pay1 (F := Ideal) (iblk m c 0 t) (iblk m c 1 t) ((cfg0.win 2).xinj (grid0.coords t) j)
    = Cert.BatchedProduct.prod (V m c main_arg0) (V m c main_arg1) (((cfg0.win 2).blk t).view.emb j)
  rw [hx]
  refine (Cert.KernelIdeal.BlockProduct.stored_apply (iblk m c 0 t) (iblk m c 1 t) ⟨(j 0).val, hb⟩ ⟨(j 1).val, hd⟩ ⟨(j 2).val, hn⟩).trans ?_
  have he : (((cfg0.win 2).blk t).view.emb j : S16x256x2048.Idx)
      = ix3 (⟨t.val * 2 + (j 0).val, hB⟩ : Fin 16) (⟨(j 1).val, hd⟩ : Fin 256) (⟨(j 2).val, hn⟩ : Fin 2048) :=
    (congrArg (fun y => (((cfg0.win 2).blk t).view.emb y : S16x256x2048.Idx)) hj).trans
      (Cert.KernelIdeal.BlockReads.oblock_emb t ⟨(j 0).val, hb⟩ ⟨(j 1).val, hd⟩ ⟨(j 2).val, hn⟩ ⟨t.val * 2 + (j 0).val, hB⟩ rfl)
  rw [he, Cert.BatchedProduct.prod_apply]
  refine Finset.sum_congr rfl fun k _ => ?_
  rw [Cert.KernelIdeal.BlockReads.xblock_apply m c t ⟨(j 0).val, hb⟩ ⟨(j 1).val, hd⟩ k ⟨t.val * 2 + (j 0).val, hB⟩ rfl,
    Cert.KernelIdeal.BlockReads.pblock_apply m c t ⟨(j 0).val, hb⟩ k ⟨(j 2).val, hn⟩ ⟨t.val * 2 + (j 0).val, hB⟩ rfl]

/-- After the run the result array is the product of the two argument stacks as launched. -/
theorem final (c : Dev nD) :
    (dats m 0 c).arrAt 2 cfg0.N
      = Cert.BatchedProduct.prod (m ((c : Thread nD τ).loc main_arg0)) (m ((c : Thread nD τ).loc main_arg1)) :=
  (dats m 0 c).arrAt_eq_of_cover 2 (Cert.BatchedProduct.prod (V m c main_arg0) (V m c main_arg1))
    (fun t _ => flushed_eq m c t) Cert.KernelIdeal.BlockReads.covered

/-- The kernel's run: every weakly fair execution terminates with the result array at the product of the two
    argument stacks, the arguments unchanged. -/
theorem run : θ_run defs (onTc (τ := τ) (main (F := Ideal))) ⟨m, fun _ => 0, ρ⟩ fun r => ∀ c : Dev nD,
      r.2.mem ((c : Thread nD τ).loc main_v0)
        = Cert.BatchedProduct.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelProduct

end
-- ==== Proof.RefProduct.lean ====
/-
  The reference computes the product of the two stacks: its one operation is a contraction of axis 2 of the first
  argument against axis 1 of the second with axis 0 of both kept as the batch, so its entry (b, d, n) is the sum over
  k of x[b, d, k] · p[b, k, n].
-/
import proofs.«151869_j46634754900528_2_alg».proof.Proof.Gen.ReferenceIdeal.Read
import proofs.«151869_j46634754900528_2_alg».proof.Proof.BatchedProduct

noncomputable section

open scoped BigOperators

namespace Cert.ReferenceIdeal.RefProduct

open Cert.ReferenceIdeal Cert.ReferenceIdeal.Gen Idealize.ShloMosaic Idealize.ShloMosaic.ValueIdx

/-- The reference's result, as a function of its two arguments, is the product of the two stacks. -/
theorem ref_eq (x0 : (⟨S16x256x512, .f32⟩ : BufTy).Contents (Elt Ideal)) (x1 : (⟨S16x512x2048, .f32⟩ : BufTy).Contents (Elt Ideal)) :
    Read.val_main_v0 (F := Ideal) x0 x1 = Cert.BatchedProduct.prod x0 x1 := by
  funext i
  rw [Read.val_main_v0_apply]
  show _ = ∑ k : Fin 512, x0 (ix3 (i 0) (i 1) k) * x1 (ix3 (i 0) k (i 2))
  refine Finset.sum_congr rfl fun k _ => ?_
  have el : Read.lidx_main_v0 i k = ix3 (i 0) (i 1) k :=
    funext fun a => Fin.ext (by match a with | ⟨0, _⟩ => rfl | ⟨1, _⟩ => rfl | ⟨2, _⟩ => rfl)
  have er : Read.ridx_main_v0 i k = ix3 (i 0) k (i 2) :=
    funext fun a => Fin.ext (by match a with | ⟨0, _⟩ => rfl | ⟨1, _⟩ => rfl | ⟨2, _⟩ => rfl)
  rw [el, er]
  rfl

end Cert.ReferenceIdeal.RefProduct

end
-- ==== Proof.lean ====
/-
  Both programs compute the product of a stack of 16 matrices [256, 512] with a stack of 16 matrices [512, 2048]:
  entry (b, d, n) of the result is the sum over the 512 contracted positions k of x[b, d, k] · p[b, k, n]
  (Proof/BatchedProduct.lean).

  The kernel walks the batch axis two matrices at a time. At each of its 8 grid points it loads one block of each
  argument, narrows both to bf16 — which changes no value on the extended reals —, multiplies matrix by matrix into a
  zero accumulator and stores the block of 2 products; the 8 stored blocks tile the result (Proof/BlockProduct.lean,
  Proof/BlockReads.lean, Proof/KernelProduct.lean). The reference is one contraction of the whole stacks
  (Proof/RefProduct.lean). Each entry is the same finite sum of the same products on both sides, so the results are
  equal entry by entry, whatever the inputs: finiteness of the inputs is not used.

  The idealized kernel is the kernel's own text read on the extended reals (no operation was rewritten), so there is
  nothing to preserve beyond that; the three frames are the programs' runs with the results dropped.
-/
import proofs.«151869_j46634754900528_2_alg».proof.Defs
import proofs.«151869_j46634754900528_2_alg».proof.Proof.Gen.Kernel
import proofs.«151869_j46634754900528_2_alg».proof.Proof.Gen.Kernel.Frame
import proofs.«151869_j46634754900528_2_alg».proof.Proof.Gen.KernelIdeal
import proofs.«151869_j46634754900528_2_alg».proof.Proof.Gen.KernelIdeal.Frame
import proofs.«151869_j46634754900528_2_alg».proof.Proof.Gen.KernelIdeal.Value
import proofs.«151869_j46634754900528_2_alg».proof.Proof.Gen.ReferenceIdeal
import proofs.«151869_j46634754900528_2_alg».proof.Proof.Gen.ReferenceIdeal.Run
import proofs.«151869_j46634754900528_2_alg».proof.Proof.Gen.ReferenceIdeal.Read
import proofs.«151869_j46634754900528_2_alg».proof.Proof.Gen.Pre_finite_inputs
import proofs.«151869_j46634754900528_2_alg».proof.Proof.KernelProduct
import proofs.«151869_j46634754900528_2_alg».proof.Proof.RefProduct
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the two arguments, the kernel's result array and the reference's both end at the
    product of the two argument stacks. -/
theorem algebraic : Cert.algebraic_KernelIdeal_ReferenceIdeal := by
  intro m ρ m' ρ' _ hagree
  refine ⟨fun c => Cert.BatchedProduct.prod (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
